-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x1 : Shape := ⟨2, ![1, 1]⟩
abbrev S100000x1 : Shape := ⟨2, ![100000, 1]⟩
abbrev S5000x1 : Shape := ⟨2, ![5000, 1]⟩
abbrev S100000 : Shape := ⟨1, ![100000]⟩

abbrev nBuf : Space → Nat
  | .hbm => 78
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S128x128, .bf16⟩
  | .hbm, ⟨34, _⟩ => ⟨S128x128, .bf16⟩
  | .hbm, ⟨35, _⟩ => ⟨S1x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S128x128, .bf16⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S128x128, .bf16⟩
  | .hbm, ⟨70, _⟩ => ⟨S128x128, .bf16⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S128x1, .bf16⟩
  | .hbm, ⟨75, _⟩ => ⟨S1x1, .f32⟩
  | .hbm, ⟨76, _⟩ => ⟨S100000x1, .f32⟩
  | .hbm, ⟨77, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x1, .bf16⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .bf16 = 32 ∨ (Rect.block (s := S128x1) S128x1.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S1x1 : Shape := ⟨2, ![1, 1]⟩
abbrev S100000 : Shape := ⟨1, ![100000]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x1, .f32⟩
  | .hbm, ⟨105, _⟩ => ⟨S1x1, .f32⟩
  | .hbm, ⟨106, _⟩ => ⟨S100000x1, .f32⟩
  | .hbm, ⟨107, _⟩ => ⟨S100000x1, .f32⟩
  | .hbm, ⟨108, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call3_cst : Ref sig .tc := ⟨.hbm, 73, rfl⟩
abbrev main_call3_v0 : Ref sig .tc := ⟨.hbm, 74, rfl⟩
abbrev main_v45 : Ref sig .tc := ⟨.hbm, 75, rfl⟩
abbrev main_c_4 : Ref sig .tc := ⟨.hbm, 76, rfl⟩
abbrev main_v46 : Ref sig .tc := ⟨.hbm, 77, rfl⟩
abbrev main_v47 : Ref sig .tc := ⟨.hbm, 78, rfl⟩
abbrev main_c_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call4_cst : Ref sig .tc := ⟨.hbm, 94, rfl⟩
abbrev main_call4_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call5_cst : Ref sig .tc := ⟨.hbm, 101, rfl⟩
abbrev main_call5_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel's program run from launch to return, with the returned array named.

  @main is nine segments: five stretches of host operations and the four tiled kernels between them. The buffer
  contents at each boundary are a fold from the launch memory (a stretch applies its operations; a kernel replaces
  its output array by what its write-backs leave and keeps every other buffer). The run ends with every buffer at
  the last boundary's contents; read at the returned array, that is the program's result.
-/
import proofs.«122766_j81552839016471_1_alg».proof.Proof.FrameKernelIdeal

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result named: every weakly fair execution of @main terminates, nothing faulting,
    with the returned array holding what the last boundary's contents have at it and the argument arrays as
    launched. The launch over the nine segments, then the last thread state read against the final state. -/
theorem run_result : θ_run defs (onTc (τ := τ) (main (F := F))) ⟨m, fun _ => 0, ρ⟩ (fun r => ∀ c : Dev nD,
      r.2.mem ((c.tc : Thread nD τ).loc main_v52) = W9 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v52 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.Whole

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpRows.lean ====
/-
  A perceptron stage on a block of rows, at the extended reals.

    dense stage with rectifier:   max (U·W + B) 0
    dense stage without:          U·W + B
    two stages with a residual:   mlp A X W₁ B₁ W₂ B₂ = max ((max ((A + X)·W₁ + B₁) 0)·W₂ + B₂) 0
    output projection:            proj X W B = X·W + B

  with each bias held as one row [1,N] that is added to every row. Row r of any of these depends on row r of the
  left factor alone. So a tiled program that runs the stage on a block of rows (any choice of rows, given by a map
  `row` from the block's row numbers to the matrix's), through the identity casts, the row broadcast, the narrowing
  of the left factor's format and the product accumulated into a zero block that such a program prints, gets that
  block of rows of the whole-array function (`denseRelu_rows`, `denseBias_rows`, `mlp_rows`, `proj_rows`). The
  host spells the same functions with `dot_general` and `broadcast_in_dim`, making the bias row from a bias vector
  by a broadcast where the tiled program's caller reshapes it (`hostDenseRelu`, `hostDenseBias`), and a right factor
  narrowed to another float format is the same factor (`dot_truncf_rhs`). Nothing of real arithmetic is used beyond
  0 + x = x, so every statement holds at the infinities too. Generic in all extents and in the factors' formats.
-/
import proofs.«122766_j81552839016471_1_alg».proof.Proof.LibRowBlockDot
import proofs.«122766_j81552839016471_1_alg».proof.Proof.LibBiasRows

noncomputable section

namespace Cert.LibMlpRows

open Idealize.ShloMosaic Idealize.ShloMosaic.ValueIdx Cert.LibRowBlockDot Cert.LibBiasRows

variable {M m K H N : Nat} {φ φ₁ φ₂ ψ ψ₁ ψ₂ : FTy}

/-! ## The whole-array functions -/

/-- Two dense stages with bias rows and rectifiers, on the sum of an aggregate and the features. -/
def mlp (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32) : FVec Ideal ⟨2, ![M, N]⟩ .f32 :=
  biasRelu (Host.dotGeneral (DotDims.plain M H N) none
    (biasRelu (Host.dotGeneral (DotDims.plain M K H) none (addf A X) W1) B1) W2) B2

/-- One dense stage with a bias row and no rectifier. -/
def proj (X : FVec Ideal ⟨2, ![M, K]⟩ φ₁) (W : FVec Ideal ⟨2, ![K, N]⟩ φ₂) (B : FVec Ideal ⟨2, ![1, N]⟩ .f32) :
    FVec Ideal ⟨2, ![M, N]⟩ .f32 :=
  biasOnly (Host.dotGeneral (DotDims.plain M K N) none X W) B

/-! ## One stage on a block of rows -/

/-- A dense stage with rectifier on a block of rows `u` of `U` is that block of rows of the whole stage. -/
theorem denseRelu_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (row r) q) := by
  rw [biasRelu_ix2, maximumf_apply, addf_apply, broadcast_apply, broadcastTo_1b_ab_apply, shapeCast_self b hsb, hb,
    matmul_rowBlock_apply none none U W u (shapeCast ⟨2, ![K, N]⟩ w hsw) row hu
      (fun c q => by rw [shapeCast_self, hw]) r q]
  rfl

/-- A dense stage without rectifier on a block of rows `u` of `U` is that block of rows of the whole stage. -/
theorem denseBias_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc) (ix2 r q)
      = biasOnly (Host.dotGeneral (DotDims.plain M K N) none U W) B (ix2 (row r) q) := by
  rw [biasOnly_ix2, addf_apply, broadcastTo_1b_ab_apply, shapeCast_self b hsb, hb,
    matmul_rowBlock_apply none none U W u (shapeCast ⟨2, ![K, N]⟩ w hsw) row hu
      (fun c q => by rw [shapeCast_self, hw]) r q]

/-! ## The two-stage block and the projection block -/

/-- The two dense stages and their rectifiers on a block of rows, the left factor of each product narrowed to bf16
    first, applied to a block `s` whose entries are those rows of the residual sum `A + X`, is that block of rows of
    `mlp`. -/
theorem mlp_rows (row : Fin m → Fin M)
    (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32)
    (s : FVec Ideal ⟨2, ![m, K]⟩ .f32) (w1 : FVec Ideal ⟨2, ![K, H]⟩ ψ₁) (b1 : FVec Ideal ⟨2, ![1, H]⟩ .f32)
    (w2 : FVec Ideal ⟨2, ![H, N]⟩ ψ₂) (b2 : FVec Ideal ⟨2, ![1, N]⟩ .f32)
    (hs : ∀ r c, s (ix2 r c) = addf A X (ix2 (row r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsw1 : (⟨2, ![K, H]⟩ : Shape).ShapeCasts ⟨2, ![K, H]⟩) (hsb1 : (⟨2, ![1, H]⟩ : Shape).ShapeCasts ⟨2, ![1, H]⟩)
    (hbc1 : (⟨2, ![1, H]⟩ : Shape).Broadcasts ⟨2, ![m, H]⟩)
    (hsw2 : (⟨2, ![H, N]⟩ : Shape).ShapeCasts ⟨2, ![H, N]⟩) (hsb2 : (⟨2, ![1, N]⟩ : Shape).ShapeCasts ⟨2, ![1, N]⟩)
    (hbc2 : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    maximumf (addf (matmul (DotDims.plain m H N) none
          (truncf .bf16 (maximumf (addf (matmul (DotDims.plain m K H) none
                (truncf .bf16 s hlt) (shapeCast ⟨2, ![K, H]⟩ w1 hsw1)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (shapeCast ⟨2, ![H, N]⟩ w2 hsw2) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) j
      = mlp A X W1 B1 W2 B2 i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseRelu_rows row _ W2 B2 _ w2 b2
    (fun r c => (truncf_apply _ hlt (ix2 r c)).trans
      (denseRelu_rows row (addf A X) W1 B1 _ w1 b1
        (fun r c => (truncf_apply s hlt (ix2 r c)).trans (hs r c))
        hw1 hb1 hsw1 hsb1 hbc1 r c))
    hw2 hb2 hsw2 hsb2 hbc2 p q

/-- The output projection on a block of rows, its left factor narrowed to bf16 first, is that block of rows of
    `proj`. -/
theorem proj_rows (row : Fin m → Fin M)
    (X : FVec Ideal ⟨2, ![M, K]⟩ .f32) (W : FVec Ideal ⟨2, ![K, N]⟩ φ₂) (B : FVec Ideal ⟨2, ![1, N]⟩ .f32)
    (x : FVec Ideal ⟨2, ![m, K]⟩ .f32) (w : FVec Ideal ⟨2, ![K, N]⟩ ψ₂) (b : FVec Ideal ⟨2, ![1, N]⟩ .f32)
    (hx : ∀ r c, x (ix2 r c) = X (ix2 (row r) c))
    (hw : ∀ c q, w (ix2 c q) = W (ix2 c q)) (hb : ∀ q, b (ix2 (0 : Fin 1) q) = B (ix2 (0 : Fin 1) q))
    (hsx : (⟨2, ![m, K]⟩ : Shape).ShapeCasts ⟨2, ![m, K]⟩)
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    addf (matmul (DotDims.plain m K N) none (truncf .bf16 (shapeCast ⟨2, ![m, K]⟩ x hsx) hlt)
          (shapeCast ⟨2, ![K, N]⟩ w hsw) (constant (F := Ideal) ⟨2, ![m, N]⟩ .f32 0x00000000#32))
        (broadcastTo ⟨2, ![m, N]⟩ (shapeCast ⟨2, ![1, N]⟩ b hsb) hbc) j
      = proj X W B i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseBias_rows row X W B _ w b
    (fun r c => by rw [truncf_apply, shapeCast_self, hx]) hw hb hsw hsb hbc p q

/-! ## The host's spelling -/

/-- A right factor narrowed to bf16 is the same factor. -/
theorem dot_truncf_rhs (prec prec' : Option ContractPrecision) (U : FVec Ideal ⟨2, ![M, K]⟩ φ₁)
    (W : FVec Ideal ⟨2, ![K, N]⟩ .f32) (hlt : FTy.bf16.bits < FTy.f32.bits) :
    Host.dotGeneral (DotDims.plain M K N) prec U (truncf .bf16 W hlt) = Host.dotGeneral (DotDims.plain M K N) prec' U W := by
  funext i
  obtain ⟨r, q, rfl⟩ : ∃ (r : Fin M) (q : Fin N), i = ix2 r q := ⟨i 0, i 1, eq_ix2 i⟩
  rw [StackMember.dotGeneral_plain_apply, StackMember.dotGeneral_plain_apply]
  rfl

/-- The host's dense stage with rectifier, its bias a vector broadcast to a row and then over the rows, is the
    stage with the bias vector reshaped to a row. -/
theorem hostDenseRelu (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2))
    (hc : (⟨1, ![N]⟩ : Shape).ShapeCasts ⟨2, ![1, N]⟩) :
    maximumf (addf Y (broadcastInDim ⟨2, ![M, N]⟩ ![0, 1] h2 (broadcastInDim ⟨2, ![1, N]⟩ ![1] h1 bv)))
        (broadcastInDim ⟨2, ![M, N]⟩ ![] hz (constant (F := Ideal) ⟨0, ![]⟩ .f32 0x00000000#32))
      = biasRelu Y (shapeCast ⟨2, ![1, N]⟩ bv hc) := by
  rw [hostBiasRelu, castRow_eq bv hc h1]

/-- The host's dense stage without rectifier, its bias a vector broadcast to a row and then over the rows. -/
theorem hostDenseBias (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf Y (broadcastInDim ⟨2, ![M, N]⟩ ![0, 1] h2 (broadcastInDim ⟨2, ![1, N]⟩ ![1] h1 bv))
      = biasOnly Y (shapeCast ⟨2, ![1, N]⟩ bv hc) := by
  rw [hostBiasOnly, castRow_eq bv hc h1]

end Cert.LibMlpRows

end
-- ==== Proof.Payload.lean ====
/-
  The bodies' stored values, read at an entry of a block of rows.

  Each of the three layer kernels stores max ((max ((a + x)·w₁ + b₁) 0)·w₂ + b₂) 0 of the blocks it loaded, and the
  projection kernel stores x·w + b. When the row blocks it loaded are rows `row r` of whole arrays, what it stores is
  the same rows of the whole-array functions `mlp` and `proj`: a row of a product depends on that row of the left
  factor alone, and the bias and the rectifier act entry by entry.
-/
import proofs.«122766_j81552839016471_1_alg».proof.Proof.Gen.KernelIdeal.Skeleton
import proofs.«122766_j81552839016471_1_alg».proof.Proof.LibMlpRows

noncomputable section

namespace Cert.KernelIdeal.Blocks

open Idealize.ShloMosaic Idealize.ShloMosaic.ValueIdx Cert.KernelIdeal Cert.KernelIdeal.Gen Cert.LibMlpRows

/-- Block `row` of layer 0's perceptron: the body's stored value at an entry of the block is the whole-array
    `mlp` of the aggregate, the features, the two weight matrices and the two bias rows at the entry's row of the
    whole array, when the first two loaded blocks are those rows of the aggregate and of the features and the others
    the weights and biases themselves. -/
theorem pay0_rows (row : Fin 5000 → Fin 100000)
    (A X : FVec Ideal S100000x128 .f32) (W1 : FVec Ideal S128x128 .bf16) (B1 : FVec Ideal S1x128 .f32)
    (W2 : FVec Ideal S128x128 .bf16) (B2 : FVec Ideal S1x128 .f32)
    (x0 x1 : Vec Ideal S5000x128 .f32) (x2 : Vec Ideal S128x128 .bf16) (x3 : Vec Ideal S1x128 .f32)
    (x4 : Vec Ideal S128x128 .bf16) (x5 : Vec Ideal S1x128 .f32)
    (h0 : ∀ r c, x0 (ix2 r c) = A (ix2 (row r) c)) (h1 : ∀ r c, x1 (ix2 r c) = X (ix2 (row r) c))
    (h2 : ∀ c q, x2 (ix2 c q) = W1 (ix2 c q)) (h3 : ∀ q, x3 (ix2 (0 : Fin 1) q) = B1 (ix2 (0 : Fin 1) q))
    (h4 : ∀ c q, x4 (ix2 c q) = W2 (ix2 c q)) (h5 : ∀ q, x5 (ix2 (0 : Fin 1) q) = B2 (ix2 (0 : Fin 1) q))
    (j : S5000x128.Idx) (i : S100000x128.Idx)
    (hi0 : (i 0).val = (row (j 0)).val) (hi1 : (i 1).val = (j 1).val) :
    k0_pay1 (F := Ideal) x0 x1 x2 x3 x4 x5 j = mlp A X W1 B1 W2 B2 i := by
  unfold k0_pay1
  exact mlp_rows row A X W1 B1 W2 B2 _ x2 x3 x4 x5
    (fun r c => by rw [addf_apply, addf_apply, shapeCast_self, h0, h1]) h2 h3 h4 h5 _ _ _ _ _ _ _ j i hi0 hi1

/-- Block `row` of layer 1's perceptron: the body's stored value at an entry of the block is the whole-array
    `mlp` of the aggregate, the features, the two weight matrices and the two bias rows at the entry's row of the
    whole array, when the first two loaded blocks are those rows of the aggregate and of the features and the others
    the weights and biases themselves. -/
theorem pay1_rows (row : Fin 5000 → Fin 100000)
    (A X : FVec Ideal S100000x128 .f32) (W1 : FVec Ideal S128x128 .bf16) (B1 : FVec Ideal S1x128 .f32)
    (W2 : FVec Ideal S128x128 .bf16) (B2 : FVec Ideal S1x128 .f32)
    (x0 x1 : Vec Ideal S5000x128 .f32) (x2 : Vec Ideal S128x128 .bf16) (x3 : Vec Ideal S1x128 .f32)
    (x4 : Vec Ideal S128x128 .bf16) (x5 : Vec Ideal S1x128 .f32)
    (h0 : ∀ r c, x0 (ix2 r c) = A (ix2 (row r) c)) (h1 : ∀ r c, x1 (ix2 r c) = X (ix2 (row r) c))
    (h2 : ∀ c q, x2 (ix2 c q) = W1 (ix2 c q)) (h3 : ∀ q, x3 (ix2 (0 : Fin 1) q) = B1 (ix2 (0 : Fin 1) q))
    (h4 : ∀ c q, x4 (ix2 c q) = W2 (ix2 c q)) (h5 : ∀ q, x5 (ix2 (0 : Fin 1) q) = B2 (ix2 (0 : Fin 1) q))
    (j : S5000x128.Idx) (i : S100000x128.Idx)
    (hi0 : (i 0).val = (row (j 0)).val) (hi1 : (i 1).val = (j 1).val) :
    k1_pay1 (F := Ideal) x0 x1 x2 x3 x4 x5 j = mlp A X W1 B1 W2 B2 i := by
  unfold k1_pay1
  exact mlp_rows row A X W1 B1 W2 B2 _ x2 x3 x4 x5
    (fun r c => by rw [addf_apply, addf_apply, shapeCast_self x0, shapeCast_self x1, h0, h1]) h2 h3 h4 h5 _ _ _ _ _ _ _ j i hi0 hi1

/-- Block `row` of layer 2's perceptron: the body's stored value at an entry of the block is the whole-array
    `mlp` of the aggregate, the features, the two weight matrices and the two bias rows at the entry's row of the
    whole array, when the first two loaded blocks are those rows of the aggregate and of the features and the others
    the weights and biases themselves. -/
theorem pay2_rows (row : Fin 5000 → Fin 100000)
    (A X : FVec Ideal S100000x128 .f32) (W1 : FVec Ideal S128x128 .bf16) (B1 : FVec Ideal S1x128 .f32)
    (W2 : FVec Ideal S128x128 .bf16) (B2 : FVec Ideal S1x128 .f32)
    (x0 x1 : Vec Ideal S5000x128 .f32) (x2 : Vec Ideal S128x128 .bf16) (x3 : Vec Ideal S1x128 .f32)
    (x4 : Vec Ideal S128x128 .bf16) (x5 : Vec Ideal S1x128 .f32)
    (h0 : ∀ r c, x0 (ix2 r c) = A (ix2 (row r) c)) (h1 : ∀ r c, x1 (ix2 r c) = X (ix2 (row r) c))
    (h2 : ∀ c q, x2 (ix2 c q) = W1 (ix2 c q)) (h3 : ∀ q, x3 (ix2 (0 : Fin 1) q) = B1 (ix2 (0 : Fin 1) q))
    (h4 : ∀ c q, x4 (ix2 c q) = W2 (ix2 c q)) (h5 : ∀ q, x5 (ix2 (0 : Fin 1) q) = B2 (ix2 (0 : Fin 1) q))
    (j : S5000x128.Idx) (i : S100000x128.Idx)
    (hi0 : (i 0).val = (row (j 0)).val) (hi1 : (i 1).val = (j 1).val) :
    k2_pay1 (F := Ideal) x0 x1 x2 x3 x4 x5 j = mlp A X W1 B1 W2 B2 i := by
  unfold k2_pay1
  exact mlp_rows row A X W1 B1 W2 B2 _ x2 x3 x4 x5
    (fun r c => by rw [addf_apply, addf_apply, shapeCast_self x0, shapeCast_self x1, h0, h1]) h2 h3 h4 h5 _ _ _ _ _ _ _ j i hi0 hi1

/-- Block `row` of the projection: the body's stored value at an entry of the block is the whole-array `proj` of
    the features, the weight column and the bias at the entry's row of the whole array. -/
theorem pay3_rows (row : Fin 5000 → Fin 100000)
    (X : FVec Ideal S100000x128 .f32) (W : FVec Ideal S128x1 .bf16) (B : FVec Ideal S1x1 .f32)
    (x0 : Vec Ideal S5000x128 .f32) (x1 : Vec Ideal S128x1 .bf16) (x2 : Vec Ideal S1x1 .f32)
    (h0 : ∀ r c, x0 (ix2 r c) = X (ix2 (row r) c))
    (h1 : ∀ c q, x1 (ix2 c q) = W (ix2 c q)) (h2 : ∀ q, x2 (ix2 (0 : Fin 1) q) = B (ix2 (0 : Fin 1) q))
    (j : S5000x1.Idx) (i : S100000x1.Idx)
    (hi0 : (i 0).val = (row (j 0)).val) (hi1 : (i 1).val = (j 1).val) :
    k3_pay1 (F := Ideal) x0 x1 x2 j = proj X W B i := by
  unfold k3_pay1
  exact proj_rows row X W B x0 x1 x2 h0 h1 h2 _ _ _ _ _ j i hi0 hi1

end Cert.KernelIdeal.Blocks

end
-- ==== Proof.Region0.lean ====
/-
  Region 0 of the kernel's program as one whole-array function of the arrays it is entered with.

  The grid has 20 points; point t stages rows 5000·t … 5000·t + 4999 of the row-tiled operands and the whole of
  the others, and writes back the same rows of the output. The body's stored value on such a block is that block of
  rows of the whole-array function (the module of the bodies' values), and the 20 blocks tile the output. So after
  the region the output array IS the whole-array function of the arrays the region was entered with, whatever
  those were.
-/
import proofs.«122766_j81552839016471_1_alg».proof.Proof.FrameKernelIdeal
import proofs.«122766_j81552839016471_1_alg».proof.Proof.Payload

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.LibMlpRows

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the row-tiled windows sit at block t on the rows and block 0 on
    the columns, the others at block 0 on both axes. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer as one function of the arrays region 0 is entered with: the aggregate, the features, the two
    narrowed weight matrices and the two bias rows. -/
abbrev layer0 (c : Dev nD) : FVec Ideal S100000x128 .f32 :=
  mlp (φ₁ := .bf16) (φ₂ := .bf16) (V c main_v13) (V c main_arg0) (V c main_v14) (V c main_v16) (V c main_v15) (V c main_v17)

/-- What point t writes back is block t of the layer of the arrays the region is entered with. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S128x128) hz0, View.ld_unit_zero (S := S1x128) hz0]
  obtain ⟨e00, e01, e10, e11, e20, e21, e30, e31, e40, e41, e50, e51, e60, e61⟩ := idx0 t
  have ht : t.val < 20 := t.isLt
  funext j
  show k0_pay1 (F := Ideal) (iblk0 V c 0 t) (iblk0 V c 1 t) (iblk0 V c 2 t) (iblk0 V c 3 t) (iblk0 V c 4 t) (iblk0 V c 5 t) j
    = layer0 V c (((cfg0.win 6).blk t).view.emb j)
  refine pay0_rows (fun r => ⟨t.val * 5000 + r.val, by have := r.isLt; omega⟩)
    (V c main_v13) (V c main_arg0) (V c main_v14) (V c main_v16) (V c main_v15) (V c main_v17)
    (iblk0 V c 0 t) (iblk0 V c 1 t) (iblk0 V c 2 t) (iblk0 V c 3 t) (iblk0 V c 4 t) (iblk0 V c 5 t)
    ?_ ?_ ?_ ?_ ?_ ?_ j (((cfg0.win 6).blk t).view.emb j) ?_ ?_
  · intro r q
    show V c (Pipeline.arrRef spec0 0) (((cfg0.win 0).blk t).view.emb (ix2 r q)) = _
    refine congrArg _ (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * q.val = q.val; omega
  · intro r q
    show V c (Pipeline.arrRef spec0 1) (((cfg0.win 1).blk t).view.emb (ix2 r q)) = _
    refine congrArg _ (funext fun a => Fin.ext ?_)
    match a with
    | ⟨0, _⟩ => show win0_1.index t (0 : Fin 2) * 5000 + 1 * r.val = t.val * 5000 + r.val; omega
    | ⟨1, _⟩ => show win0_1.index t (1 : Fin 2) * 128 + 1 * q.val = q.val; omega
  · intro r q
    show V c (Pipeline.arrRef spec0 2) (((cfg0.win 2).blk t).view.emb (ix2 r q)) = _
    refine congrArg _ (funext fun a => Fin.ext ?_)
    match a with
    | ⟨0, _⟩ => show win0_2.index t (0 : Fin 2) * 128 + 1 * r.val = r.val; omega
    | ⟨1, _⟩ => show win0_2.index t (1 : Fin 2) * 128 + 1 * q.val = q.val; omega
  · intro q
    show V c (Pipeline.arrRef spec0 3) (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  · intro r q
    show V c (Pipeline.arrRef spec0 4) (((cfg0.win 4).blk t).view.emb (ix2 r q)) = _
    refine congrArg _ (funext fun a => Fin.ext ?_)
    match a with
    | ⟨0, _⟩ => show win0_4.index t (0 : Fin 2) * 128 + 1 * r.val = r.val; omega
    | ⟨1, _⟩ => show win0_4.index t (1 : Fin 2) * 128 + 1 * q.val = q.val; omega
  · intro q
    show V c (Pipeline.arrRef spec0 5) (((cfg0.win 5).blk t).view.emb (ix2 (0 : Fin 1) q)) = _
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  · show win0_6.index t (0 : Fin 2) * 5000 + 1 * (j 0).val = t.val * 5000 + (j 0).val; omega
  · show win0_6.index t (1 : Fin 2) * 128 + 1 * (j 1).val = (j 1).val; omega

/-- An index of the output array is in point t's block iff each coordinate is in the block's range on its axis. -/
theorem mem_blk0 (t : Fin cfg0.N) (i : S100000x128.Idx) :
    i ∈ ((cfg0.win 6).blk t).view.set ↔ ∀ a : Fin 2, win0_6.index t a * (![5000, 128] : Fin 2 → Nat) a ≤ (i a).val
      ∧ (i a).val < win0_6.index t a * (![5000, 128] : Fin 2 → Nat) a + (![5000, 128] : Fin 2 → Nat) a := by
  show i ∈ ((View.whole main_v18).slice (win0_6.rect t)).set ↔ _
  rw [View.set_slice_whole, Rect.mem_set_unit]
  exact Iff.rfl

/-- The 20 blocks tile the output: row r is in the block of point r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, -, -, -, -, -, -, e60, e61⟩ := idx0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After region 0 its output array is layer0 of the arrays the region is entered with. -/
theorem final0 (c : Dev nD) : (dat0 V c).arrAt 6 cfg0.N = layer0 V c :=
  (dat0 V c).arrAt_eq_of_cover 6 (layer0 V c) (fun t _ => flushed0_eq V c t) cover0

end Cert.KernelIdeal.Regions

end
-- ==== Proof.Region1.lean ====
/-
  Region 1 of the kernel's program as one whole-array function of the arrays it is entered with.

  The grid has 20 points; point t stages rows 5000·t … 5000·t + 4999 of the row-tiled operands and the whole of
  the others, and writes back the same rows of the output. The body's stored value on such a block is that block of
  rows of the whole-array function (the module of the bodies' values), and the 20 blocks tile the output. So after
  the region the output array IS the whole-array function of the arrays the region was entered with, whatever
  those were.
-/
import proofs.«122766_j81552839016471_1_alg».proof.Proof.FrameKernelIdeal
import proofs.«122766_j81552839016471_1_alg».proof.Proof.Payload

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.LibMlpRows

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-tiled windows sit at block t on the rows and block 0 on
    the columns, the others at block 0 on both axes. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer as one function of the arrays region 1 is entered with: the aggregate, the features, the two
    narrowed weight matrices and the two bias rows. -/
abbrev layer1 (c : Dev nD) : FVec Ideal S100000x128 .f32 :=
  mlp (φ₁ := .bf16) (φ₂ := .bf16) (V c main_v28) (V c main_v18) (V c main_v29) (V c main_v31) (V c main_v30) (V c main_v32)

/-- What point t writes back is block t of the layer of the arrays the region is entered with. -/
theorem flushed1_eq (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S128x128) hz1, View.ld_unit_zero (S := S1x128) hz1]
  obtain ⟨e00, e01, e10, e11, e20, e21, e30, e31, e40, e41, e50, e51, e60, e61⟩ := idx1 t
  have ht : t.val < 20 := t.isLt
  funext j
  show k1_pay1 (F := Ideal) (iblk1 V c 0 t) (iblk1 V c 1 t) (iblk1 V c 2 t) (iblk1 V c 3 t) (iblk1 V c 4 t) (iblk1 V c 5 t) j
    = layer1 V c (((cfg1.win 6).blk t).view.emb j)
  refine pay1_rows (fun r => ⟨t.val * 5000 + r.val, by have := r.isLt; omega⟩)
    (V c main_v28) (V c main_v18) (V c main_v29) (V c main_v31) (V c main_v30) (V c main_v32)
    (iblk1 V c 0 t) (iblk1 V c 1 t) (iblk1 V c 2 t) (iblk1 V c 3 t) (iblk1 V c 4 t) (iblk1 V c 5 t)
    ?_ ?_ ?_ ?_ ?_ ?_ j (((cfg1.win 6).blk t).view.emb j) ?_ ?_
  · intro r q
    show V c (Pipeline.arrRef spec1 0) (((cfg1.win 0).blk t).view.emb (ix2 r q)) = _
    refine congrArg _ (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * q.val = q.val; omega
  · intro r q
    show V c (Pipeline.arrRef spec1 1) (((cfg1.win 1).blk t).view.emb (ix2 r q)) = _
    refine congrArg _ (funext fun a => Fin.ext ?_)
    match a with
    | ⟨0, _⟩ => show win1_1.index t (0 : Fin 2) * 5000 + 1 * r.val = t.val * 5000 + r.val; omega
    | ⟨1, _⟩ => show win1_1.index t (1 : Fin 2) * 128 + 1 * q.val = q.val; omega
  · intro r q
    show V c (Pipeline.arrRef spec1 2) (((cfg1.win 2).blk t).view.emb (ix2 r q)) = _
    refine congrArg _ (funext fun a => Fin.ext ?_)
    match a with
    | ⟨0, _⟩ => show win1_2.index t (0 : Fin 2) * 128 + 1 * r.val = r.val; omega
    | ⟨1, _⟩ => show win1_2.index t (1 : Fin 2) * 128 + 1 * q.val = q.val; omega
  · intro q
    show V c (Pipeline.arrRef spec1 3) (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro r q
    show V c (Pipeline.arrRef spec1 4) (((cfg1.win 4).blk t).view.emb (ix2 r q)) = _
    refine congrArg _ (funext fun a => Fin.ext ?_)
    match a with
    | ⟨0, _⟩ => show win1_4.index t (0 : Fin 2) * 128 + 1 * r.val = r.val; omega
    | ⟨1, _⟩ => show win1_4.index t (1 : Fin 2) * 128 + 1 * q.val = q.val; omega
  · intro q
    show V c (Pipeline.arrRef spec1 5) (((cfg1.win 5).blk t).view.emb (ix2 (0 : Fin 1) q)) = _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  · show win1_6.index t (0 : Fin 2) * 5000 + 1 * (j 0).val = t.val * 5000 + (j 0).val; omega
  · show win1_6.index t (1 : Fin 2) * 128 + 1 * (j 1).val = (j 1).val; omega

/-- An index of the output array is in point t's block iff each coordinate is in the block's range on its axis. -/
theorem mem_blk1 (t : Fin cfg1.N) (i : S100000x128.Idx) :
    i ∈ ((cfg1.win 6).blk t).view.set ↔ ∀ a : Fin 2, win1_6.index t a * (![5000, 128] : Fin 2 → Nat) a ≤ (i a).val
      ∧ (i a).val < win1_6.index t a * (![5000, 128] : Fin 2 → Nat) a + (![5000, 128] : Fin 2 → Nat) a := by
  show i ∈ ((View.whole main_v33).slice (win1_6.rect t)).set ↔ _
  rw [View.set_slice_whole, Rect.mem_set_unit]
  exact Iff.rfl

/-- The 20 blocks tile the output: row r is in the block of point r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, -, -, -, -, -, -, e60, e61⟩ := idx1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After region 1 its output array is layer1 of the arrays the region is entered with. -/
theorem final1 (c : Dev nD) : (dat1 V c).arrAt 6 cfg1.N = layer1 V c :=
  (dat1 V c).arrAt_eq_of_cover 6 (layer1 V c) (fun t _ => flushed1_eq V c t) cover1

end Cert.KernelIdeal.Regions

end
-- ==== Proof.Region2.lean ====
/-
  Region 2 of the kernel's program as one whole-array function of the arrays it is entered with.

  The grid has 20 points; point t stages rows 5000·t … 5000·t + 4999 of the row-tiled operands and the whole of
  the others, and writes back the same rows of the output. The body's stored value on such a block is that block of
  rows of the whole-array function (the module of the bodies' values), and the 20 blocks tile the output. So after
  the region the output array IS the whole-array function of the arrays the region was entered with, whatever
  those were.
-/
import proofs.«122766_j81552839016471_1_alg».proof.Proof.FrameKernelIdeal
import proofs.«122766_j81552839016471_1_alg».proof.Proof.Payload

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.LibMlpRows

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row-tiled windows sit at block t on the rows and block 0 on
    the columns, the others at block 0 on both axes. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer as one function of the arrays region 2 is entered with: the aggregate, the features, the two
    narrowed weight matrices and the two bias rows. -/
abbrev layer2 (c : Dev nD) : FVec Ideal S100000x128 .f32 :=
  mlp (φ₁ := .bf16) (φ₂ := .bf16) (V c main_v43) (V c main_v33) (V c main_v44) (V c main_v46) (V c main_v45) (V c main_v47)

/-- What point t writes back is block t of the layer of the arrays the region is entered with. -/
theorem flushed2_eq (c : Dev nD) (t : Fin cfg2.N) :
    (dat2 V c).flushed 6 t = ((cfg2.win 6).blk t).view.read (Elt Ideal) (layer2 V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S1x128) hz2]
  obtain ⟨e00, e01, e10, e11, e20, e21, e30, e31, e40, e41, e50, e51, e60, e61⟩ := idx2 t
  have ht : t.val < 20 := t.isLt
  funext j
  show k2_pay1 (F := Ideal) (iblk2 V c 0 t) (iblk2 V c 1 t) (iblk2 V c 2 t) (iblk2 V c 3 t) (iblk2 V c 4 t) (iblk2 V c 5 t) j
    = layer2 V c (((cfg2.win 6).blk t).view.emb j)
  refine pay2_rows (fun r => ⟨t.val * 5000 + r.val, by have := r.isLt; omega⟩)
    (V c main_v43) (V c main_v33) (V c main_v44) (V c main_v46) (V c main_v45) (V c main_v47)
    (iblk2 V c 0 t) (iblk2 V c 1 t) (iblk2 V c 2 t) (iblk2 V c 3 t) (iblk2 V c 4 t) (iblk2 V c 5 t)
    ?_ ?_ ?_ ?_ ?_ ?_ j (((cfg2.win 6).blk t).view.emb j) ?_ ?_
  · intro r q
    show V c (Pipeline.arrRef spec2 0) (((cfg2.win 0).blk t).view.emb (ix2 r q)) = _
    refine congrArg _ (funext fun a => Fin.ext ?_)
    match a with
    | ⟨0, _⟩ => show win2_0.index t (0 : Fin 2) * 5000 + 1 * r.val = t.val * 5000 + r.val; omega
    | ⟨1, _⟩ => show win2_0.index t (1 : Fin 2) * 128 + 1 * q.val = q.val; omega
  · intro r q
    show V c (Pipeline.arrRef spec2 1) (((cfg2.win 1).blk t).view.emb (ix2 r q)) = _
    refine congrArg _ (funext fun a => Fin.ext ?_)
    match a with
    | ⟨0, _⟩ => show win2_1.index t (0 : Fin 2) * 5000 + 1 * r.val = t.val * 5000 + r.val; omega
    | ⟨1, _⟩ => show win2_1.index t (1 : Fin 2) * 128 + 1 * q.val = q.val; omega
  · intro r q
    show V c (Pipeline.arrRef spec2 2) (((cfg2.win 2).blk t).view.emb (ix2 r q)) = _
    refine congrArg _ (funext fun a => Fin.ext ?_)
    match a with
    | ⟨0, _⟩ => show win2_2.index t (0 : Fin 2) * 128 + 1 * r.val = r.val; omega
    | ⟨1, _⟩ => show win2_2.index t (1 : Fin 2) * 128 + 1 * q.val = q.val; omega
  · intro q
    show V c (Pipeline.arrRef spec2 3) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · intro r q
    show V c (Pipeline.arrRef spec2 4) (((cfg2.win 4).blk t).view.emb (ix2 r q)) = _
    refine congrArg _ (funext fun a => Fin.ext ?_)
    match a with
    | ⟨0, _⟩ => show win2_4.index t (0 : Fin 2) * 128 + 1 * r.val = r.val; omega
    | ⟨1, _⟩ => show win2_4.index t (1 : Fin 2) * 128 + 1 * q.val = q.val; omega
  · intro q
    show V c (Pipeline.arrRef spec2 5) (((cfg2.win 5).blk t).view.emb (ix2 (0 : Fin 1) q)) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  · show win2_6.index t (0 : Fin 2) * 5000 + 1 * (j 0).val = t.val * 5000 + (j 0).val; omega
  · show win2_6.index t (1 : Fin 2) * 128 + 1 * (j 1).val = (j 1).val; omega

/-- An index of the output array is in point t's block iff each coordinate is in the block's range on its axis. -/
theorem mem_blk2 (t : Fin cfg2.N) (i : S100000x128.Idx) :
    i ∈ ((cfg2.win 6).blk t).view.set ↔ ∀ a : Fin 2, win2_6.index t a * (![5000, 128] : Fin 2 → Nat) a ≤ (i a).val
      ∧ (i a).val < win2_6.index t a * (![5000, 128] : Fin 2 → Nat) a + (![5000, 128] : Fin 2 → Nat) a := by
  show i ∈ ((View.whole main_v48).slice (win2_6.rect t)).set ↔ _
  rw [View.set_slice_whole, Rect.mem_set_unit]
  exact Iff.rfl

/-- The 20 blocks tile the output: row r is in the block of point r / 5000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show (i 0).val / 5000 < 20; omega⟩, rfl⟩
  obtain ⟨-, -, -, -, -, -, -, -, -, -, -, -, e60, e61⟩ := idx2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After region 2 its output array is layer2 of the arrays the region is entered with. -/
theorem final2 (c : Dev nD) : (dat2 V c).arrAt 6 cfg2.N = layer2 V c :=
  (dat2 V c).arrAt_eq_of_cover 6 (layer2 V c) (fun t _ => flushed2_eq V c t) cover2

end Cert.KernelIdeal.Regions

end
-- ==== Proof.Region3.lean ====
/-
  Region 3 of the kernel's program as one whole-array function of the arrays it is entered with.

  The grid has 20 points; point t stages rows 5000·t … 5000·t + 4999 of the row-tiled operands and the whole of
  the others, and writes back the same rows of the output. The body's stored value on such a block is that block of
  rows of the whole-array function (the module of the bodies' values), and the 20 blocks tile the output. So after
  the region the output array IS the whole-array function of the arrays the region was entered with, whatever
  those were.
-/
import proofs.«122766_j81552839016471_1_alg».proof.Proof.FrameKernelIdeal
import proofs.«122766_j81552839016471_1_alg».proof.Proof.Payload

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.LibMlpRows

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the row-tiled windows sit at block t on the rows and block 0 on
    the columns, the others at block 0 on both axes. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The projection as one function of the arrays region 3 is entered with: the features, the narrowed weight
    column and the bias as a one-entry row. -/
abbrev head3 (c : Dev nD) : FVec Ideal S100000x1 .f32 :=
  proj (φ₁ := .f32) (φ₂ := .bf16) (V c main_v48) (V c main_v49) (V c main_v50)

/-- What point t writes back is block t of the projection of the arrays the region is entered with. -/
theorem flushed3_eq (c : Dev nD) (t : Fin cfg3.N) :
    (dat3 V c).flushed 3 t = ((cfg3.win 3).blk t).view.read (Elt Ideal) (head3 V c) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S128x1) hz3, View.ld_unit_zero (S := S1x1) hz3]
  obtain ⟨e00, e01, e10, e11, e20, e21, e30, e31⟩ := idx3 t
  have ht : t.val < 20 := t.isLt
  funext j
  show k3_pay1 (F := Ideal) (iblk3 V c 0 t) (iblk3 V c 1 t) (iblk3 V c 2 t) j
    = head3 V c (((cfg3.win 3).blk t).view.emb j)
  refine pay3_rows (fun r => ⟨t.val * 5000 + r.val, by have := r.isLt; omega⟩)
    (V c main_v48) (V c main_v49) (V c main_v50)
    (iblk3 V c 0 t) (iblk3 V c 1 t) (iblk3 V c 2 t)
    ?_ ?_ ?_ j (((cfg3.win 3).blk t).view.emb j) ?_ ?_
  · intro r q
    show V c (Pipeline.arrRef spec3 0) (((cfg3.win 0).blk t).view.emb (ix2 r q)) = _
    refine congrArg _ (funext fun a => Fin.ext ?_)
    match a with
    | ⟨0, _⟩ => show win3_0.index t (0 : Fin 2) * 5000 + 1 * r.val = t.val * 5000 + r.val; omega
    | ⟨1, _⟩ => show win3_0.index t (1 : Fin 2) * 128 + 1 * q.val = q.val; omega
  · intro r q
    show V c (Pipeline.arrRef spec3 1) (((cfg3.win 1).blk t).view.emb (ix2 r q)) = _
    refine congrArg _ (funext fun a => Fin.ext ?_)
    match a with
    | ⟨0, _⟩ => show win3_1.index t (0 : Fin 2) * 128 + 1 * r.val = r.val; omega
    | ⟨1, _⟩ => show win3_1.index t (1 : Fin 2) * 1 + 1 * q.val = q.val; omega
  · intro q
    show V c (Pipeline.arrRef spec3 2) (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 1 + 1 * q.val = q.val; omega
  · show win3_3.index t (0 : Fin 2) * 5000 + 1 * (j 0).val = t.val * 5000 + (j 0).val; omega
  · show win3_3.index t (1 : Fin 2) * 1 + 1 * (j 1).val = (j 1).val; omega

/-- An index of the output array is in point t's block iff each coordinate is in the block's range on its axis. -/
theorem mem_blk3 (t : Fin cfg3.N) (i : S100000x1.Idx) :
    i ∈ ((cfg3.win 3).blk t).view.set ↔ ∀ a : Fin 2, win3_3.index t a * (![5000, 1] : Fin 2 → Nat) a ≤ (i a).val
      ∧ (i a).val < win3_3.index t a * (![5000, 1] : Fin 2 → Nat) a + (![5000, 1] : Fin 2 → Nat) a := by
  show i ∈ ((View.whole main_v51).slice (win3_3.rect t)).set ↔ _
  rw [View.set_slice_whole, Rect.mem_set_unit]
  exact Iff.rfl

/-- The 20 blocks tile the output: row r is in the block of point r / 5000. -/
theorem cover3 (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  obtain ⟨t, ht⟩ : ∃ t : Fin cfg3.N, t.val = (i 0).val / 5000 :=
    ⟨⟨(i 0).val / 5000, by show (i 0).val / 5000 < 20; omega⟩, rfl⟩
  obtain ⟨-, -, -, -, -, -, e30, e31⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 1 ≤ (i 1).val ∧ (i 1).val < win3_3.index t (1 : Fin 2) * 1 + 1; omega

/-- After region 3 its output array is head3 of the arrays the region is entered with. -/
theorem final3 (c : Dev nD) : (dat3 V c).arrAt 3 cfg3.N = head3 V c :=
  (dat3 V c).arrAt_eq_of_cover 3 (head3 V c) (fun t _ => flushed3_eq V c t) cover3

end Cert.KernelIdeal.Regions

end
-- ==== Proof.NetSpec.lean ====
/-
  The three-layer network with a projection head, as one function of its inputs at the extended reals.

  A layer takes the node features h and returns mlp (agg h) h W₁ b₁ W₂ b₂ = max ((max ((agg h + h)·W₁ + b₁) 0)·W₂ + b₂) 0,
  where `agg` is the neighbourhood aggregation (a parameter here: both programs compute it by the same gather and
  scatter-add, and nothing below looks inside it). The network applies three layers and then the projection
  h·w + b, and returns the resulting column as a vector. The weights enter narrowed to bf16, which changes no
  value, and the bias vectors enter reshaped to rows.

  `hostLayer_eq` and `hostHead_eq`: the same layer and head written with `dot_general` on the un-narrowed weights,
  the biases broadcast in two steps, and `maximum` against a zero splat.
-/
import proofs.«122766_j81552839016471_1_alg».proof.Proof.LibMlpRows

noncomputable section

namespace Cert.Net

open Idealize.ShloMosaic Cert.LibMlpRows Cert.LibBiasRows

/-- The node-feature arrays. -/
abbrev Feat : Type := FVec Ideal ⟨2, ![100000, 128]⟩ .f32
/-- A weight matrix. -/
abbrev Wt : Type := FVec Ideal ⟨2, ![128, 128]⟩ .f32
/-- A bias vector. -/
abbrev Bs : Type := FVec Ideal ⟨1, ![128]⟩ .f32

variable (agg : Feat → Feat) (hlt : FTy.bf16.bits < FTy.f32.bits)
  (hc : (⟨1, ![128]⟩ : Shape).ShapeCasts ⟨2, ![1, 128]⟩)

/-- One layer on the features `h`. -/
def layer (h : Feat) (w1 : Wt) (b1 : Bs) (w2 : Wt) (b2 : Bs) : Feat :=
  mlp (agg h) h (truncf .bf16 w1 hlt) (shapeCast ⟨2, ![1, 128]⟩ b1 hc) (truncf .bf16 w2 hlt) (shapeCast ⟨2, ![1, 128]⟩ b2 hc)

/-- The projection head on the features `h`, as a vector. -/
def head (hc1 : (⟨1, ![1]⟩ : Shape).ShapeCasts ⟨2, ![1, 1]⟩) (ho : (⟨2, ![100000, 1]⟩ : Shape).ShapeCasts ⟨1, ![100000]⟩)
    (h : Feat) (w : FVec Ideal ⟨2, ![128, 1]⟩ .f32) (b : FVec Ideal ⟨1, ![1]⟩ .f32) : FVec Ideal ⟨1, ![100000]⟩ .f32 :=
  shapeCast ⟨1, ![100000]⟩ (proj h (truncf .bf16 w hlt) (shapeCast ⟨2, ![1, 1]⟩ b hc1)) ho

/-- The host's layer: products with the un-narrowed weights, each bias broadcast to a row and then over the rows,
    the rectifier as a maximum against a zero splat. -/
theorem hostLayer_eq (h : Feat) (w1 : Wt) (b1 : Bs) (w2 : Wt) (b2 : Bs)
    (h1 : (⟨1, ![128]⟩ : Shape).BroadcastsInDim ⟨2, ![1, 128]⟩ (![1] : Fin 1 → Fin 2))
    (h2 : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) :
    maximumf (addf (Host.dotGeneral (DotDims.plain 100000 128 128) none
          (maximumf (addf (Host.dotGeneral (DotDims.plain 100000 128 128) none (addf (agg h) h) w1)
              (broadcastInDim ⟨2, ![100000, 128]⟩ ![0, 1] h2 (broadcastInDim ⟨2, ![1, 128]⟩ ![1] h1 b1)))
            (broadcastInDim ⟨2, ![100000, 128]⟩ ![] hz (constant (F := Ideal) ⟨0, ![]⟩ .f32 0x00000000#32))) w2)
        (broadcastInDim ⟨2, ![100000, 128]⟩ ![0, 1] h2 (broadcastInDim ⟨2, ![1, 128]⟩ ![1] h1 b2)))
      (broadcastInDim ⟨2, ![100000, 128]⟩ ![] hz (constant (F := Ideal) ⟨0, ![]⟩ .f32 0x00000000#32))
      = layer agg hlt hc h w1 b1 w2 b2 := by
  unfold layer mlp
  rw [hostDenseRelu (Host.dotGeneral (DotDims.plain 100000 128 128) none (addf (agg h) h) w1) b1 h1 h2 hz hc,
    hostDenseRelu _ b2 h1 h2 hz hc, dot_truncf_rhs none none _ w1 hlt, dot_truncf_rhs none none _ w2 hlt]

/-- The host's head: the product with the un-narrowed weight column, the bias broadcast in two steps, the column
    reshaped to a vector. -/
theorem hostHead_eq (hc1 : (⟨1, ![1]⟩ : Shape).ShapeCasts ⟨2, ![1, 1]⟩)
    (ho : (⟨2, ![100000, 1]⟩ : Shape).ShapeCasts ⟨1, ![100000]⟩)
    (h : Feat) (w : FVec Ideal ⟨2, ![128, 1]⟩ .f32) (b : FVec Ideal ⟨1, ![1]⟩ .f32)
    (h1 : (⟨1, ![1]⟩ : Shape).BroadcastsInDim ⟨2, ![1, 1]⟩ (![1] : Fin 1 → Fin 2))
    (h2 : (⟨2, ![1, 1]⟩ : Shape).BroadcastsInDim ⟨2, ![100000, 1]⟩ (![0, 1] : Fin 2 → Fin 2)) :
    shapeCast ⟨1, ![100000]⟩ (addf (Host.dotGeneral (DotDims.plain 100000 128 1) none h w)
        (broadcastInDim ⟨2, ![100000, 1]⟩ ![0, 1] h2 (broadcastInDim ⟨2, ![1, 1]⟩ ![1] h1 b))) ho
      = head hlt hc1 ho h w b := by
  unfold head proj
  rw [hostDenseBias _ b h1 h2 hc1, dot_truncf_rhs none none h w hlt]

end Cert.Net

end
-- ==== Proof.KernelValue.lean ====
/-
  The kernel's program as one function of its inputs.

  Between the tiled kernels the program runs host operations: it slices the edge list into its source and
  destination rows, gathers the features of every edge's source, scatter-adds them at its destination (the
  aggregate), narrows the layer's weights and reshapes its biases to rows; a tiled kernel then turns the aggregate
  and the features into the next features. Walking the nine segments from the launch memory, each buffer a later
  segment reads is named by its function of the inputs; the returned vector is the network `Net.head` of three
  `Net.layer`s over this program's aggregation.
-/
import proofs.«122766_j81552839016471_1_alg».proof.Proof.KernelRun
import proofs.«122766_j81552839016471_1_alg».proof.Proof.Region0
import proofs.«122766_j81552839016471_1_alg».proof.Proof.Region1
import proofs.«122766_j81552839016471_1_alg».proof.Proof.Region2
import proofs.«122766_j81552839016471_1_alg».proof.Proof.Region3
import proofs.«122766_j81552839016471_1_alg».proof.Proof.NetSpec
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Regions Cert.LibMlpRows Cert.Net

/-! ## The aggregation -/

/-- The edges' source nodes: row 0 of the edge list. -/
def src (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The edges' destination nodes: row 1 of the edge list. -/
def dst (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The aggregate of the features `h`: every edge's source row (a negative index wrapped once), summed into the
    edge's destination row of a zero array. -/
def aggV (v1 v3 : (⟨S1600000, .i32⟩ : BufTy).Contents (Elt Ideal)) (h : Net.Feat) : Net.Feat :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 v3)
    (Host.gather gather_S100000x128_S1600000x1_S1600000x128_1_0_n_n_0_1_1128 h
      (broadcastInDim S1600000x1 ![0] bcast_S1600000_S1600000x1_0
        (select (cmpi .slt v1 (broadcastInDim S1600000 ![] bcast_S_S1600000 (constantI S_ 32 0#32)))
          (addi v1 (broadcastInDim S1600000 ![] bcast_S_S1600000 (constantI S_ 32 100000#32))) v1)))

/-! ## The host stretches, from any contents `W` -/

theorem s0_v1 (W : Valuation τ sig (Elt Ideal)) :
    (StableHlo.after hostOps0 W (Proc.devRef .tc main_v1) : (⟨S1600000, .i32⟩ : BufTy).Contents (Elt Ideal)) = src (W (Proc.devRef .tc main_arg1)) := by
  after_results <;> rfl
theorem s0_v3 (W : Valuation τ sig (Elt Ideal)) :
    (StableHlo.after hostOps0 W (Proc.devRef .tc main_v3) : (⟨S1600000, .i32⟩ : BufTy).Contents (Elt Ideal)) = dst (W (Proc.devRef .tc main_arg1)) := by
  after_results <;> rfl
theorem s0_v13 (W : Valuation τ sig (Elt Ideal)) :
    (StableHlo.after hostOps0 W (Proc.devRef .tc main_v13) : Net.Feat) = aggV (src (W (Proc.devRef .tc main_arg1))) (dst (W (Proc.devRef .tc main_arg1))) (W (Proc.devRef .tc main_arg0)) := by
  after_results <;> rfl
theorem s0_v14 (W : Valuation τ sig (Elt Ideal)) :
    (StableHlo.after hostOps0 W (Proc.devRef .tc main_v14) : FVec Ideal S128x128 .bf16) = truncf (F := Ideal) .bf16 ((W (Proc.devRef .tc main_arg2)) : FVec Ideal S128x128 .f32) bitsLt_bf16_f32 := by
  after_results <;> rfl
theorem s0_v16 (W : Valuation τ sig (Elt Ideal)) :
    (StableHlo.after hostOps0 W (Proc.devRef .tc main_v16) : FVec Ideal S1x128 .f32) = shapeCast S1x128 ((W (Proc.devRef .tc main_arg3)) : FVec Ideal S128 .f32) shapeCasts_S128_S1x128 := by
  after_results <;> rfl
theorem s0_v15 (W : Valuation τ sig (Elt Ideal)) :
    (StableHlo.after hostOps0 W (Proc.devRef .tc main_v15) : FVec Ideal S128x128 .bf16) = truncf (F := Ideal) .bf16 ((W (Proc.devRef .tc main_arg4)) : FVec Ideal S128x128 .f32) bitsLt_bf16_f32 := by
  after_results <;> rfl
theorem s0_v17 (W : Valuation τ sig (Elt Ideal)) :
    (StableHlo.after hostOps0 W (Proc.devRef .tc main_v17) : FVec Ideal S1x128 .f32) = shapeCast S1x128 ((W (Proc.devRef .tc main_arg5)) : FVec Ideal S128 .f32) shapeCasts_S128_S1x128 := by
  after_results <;> rfl
theorem s0_keep_arg0 (W : Valuation τ sig (Elt Ideal)) :
    StableHlo.after hostOps0 W (Proc.devRef .tc main_arg0) = W (Proc.devRef .tc main_arg0) := by
  after_results <;> rfl
theorem s0_keep_arg6 (W : Valuation τ sig (Elt Ideal)) :
    StableHlo.after hostOps0 W (Proc.devRef .tc main_arg6) = W (Proc.devRef .tc main_arg6) := by
  after_results <;> rfl
theorem s0_keep_arg7 (W : Valuation τ sig (Elt Ideal)) :
    StableHlo.after hostOps0 W (Proc.devRef .tc main_arg7) = W (Proc.devRef .tc main_arg7) := by
  after_results <;> rfl
theorem s0_keep_arg8 (W : Valuation τ sig (Elt Ideal)) :
    StableHlo.after hostOps0 W (Proc.devRef .tc main_arg8) = W (Proc.devRef .tc main_arg8) := by
  after_results <;> rfl
theorem s0_keep_arg9 (W : Valuation τ sig (Elt Ideal)) :
    StableHlo.after hostOps0 W (Proc.devRef .tc main_arg9) = W (Proc.devRef .tc main_arg9) := by
  after_results <;> rfl
theorem s0_keep_arg10 (W : Valuation τ sig (Elt Ideal)) :
    StableHlo.after hostOps0 W (Proc.devRef .tc main_arg10) = W (Proc.devRef .tc main_arg10) := by
  after_results <;> rfl
theorem s0_keep_arg11 (W : Valuation τ sig (Elt Ideal)) :
    StableHlo.after hostOps0 W (Proc.devRef .tc main_arg11) = W (Proc.devRef .tc main_arg11) := by
  after_results <;> rfl
theorem s0_keep_arg12 (W : Valuation τ sig (Elt Ideal)) :
    StableHlo.after hostOps0 W (Proc.devRef .tc main_arg12) = W (Proc.devRef .tc main_arg12) := by
  after_results <;> rfl
theorem s0_keep_arg13 (W : Valuation τ sig (Elt Ideal)) :
    StableHlo.after hostOps0 W (Proc.devRef .tc main_arg13) = W (Proc.devRef .tc main_arg13) := by
  after_results <;> rfl
theorem s0_keep_arg14 (W : Valuation τ sig (Elt Ideal)) :
    StableHlo.after hostOps0 W (Proc.devRef .tc main_arg14) = W (Proc.devRef .tc main_arg14) := by
  after_results <;> rfl
theorem s0_keep_arg15 (W : Valuation τ sig (Elt Ideal)) :
    StableHlo.after hostOps0 W (Proc.devRef .tc main_arg15) = W (Proc.devRef .tc main_arg15) := by
  after_results <;> rfl
theorem s1_v28 (W : Valuation τ sig (Elt Ideal)) :
    (StableHlo.after hostOps1 W (Proc.devRef .tc main_v28) : Net.Feat) = aggV (W (Proc.devRef .tc main_v1)) (W (Proc.devRef .tc main_v3)) (W (Proc.devRef .tc main_v18)) := by
  after_results <;> rfl
theorem s1_v29 (W : Valuation τ sig (Elt Ideal)) :
    (StableHlo.after hostOps1 W (Proc.devRef .tc main_v29) : FVec Ideal S128x128 .bf16) = truncf (F := Ideal) .bf16 ((W (Proc.devRef .tc main_arg6)) : FVec Ideal S128x128 .f32) bitsLt_bf16_f32 := by
  after_results <;> rfl
theorem s1_v31 (W : Valuation τ sig (Elt Ideal)) :
    (StableHlo.after hostOps1 W (Proc.devRef .tc main_v31) : FVec Ideal S1x128 .f32) = shapeCast S1x128 ((W (Proc.devRef .tc main_arg7)) : FVec Ideal S128 .f32) shapeCasts_S128_S1x128 := by
  after_results <;> rfl
theorem s1_v30 (W : Valuation τ sig (Elt Ideal)) :
    (StableHlo.after hostOps1 W (Proc.devRef .tc main_v30) : FVec Ideal S128x128 .bf16) = truncf (F := Ideal) .bf16 ((W (Proc.devRef .tc main_arg8)) : FVec Ideal S128x128 .f32) bitsLt_bf16_f32 := by
  after_results <;> rfl
theorem s1_v32 (W : Valuation τ sig (Elt Ideal)) :
    (StableHlo.after hostOps1 W (Proc.devRef .tc main_v32) : FVec Ideal S1x128 .f32) = shapeCast S1x128 ((W (Proc.devRef .tc main_arg9)) : FVec Ideal S128 .f32) shapeCasts_S128_S1x128 := by
  after_results <;> rfl
theorem s1_keep_v18 (W : Valuation τ sig (Elt Ideal)) :
    StableHlo.after hostOps1 W (Proc.devRef .tc main_v18) = W (Proc.devRef .tc main_v18) := by
  after_results <;> rfl
theorem s1_keep_v1 (W : Valuation τ sig (Elt Ideal)) :
    StableHlo.after hostOps1 W (Proc.devRef .tc main_v1) = W (Proc.devRef .tc main_v1) := by
  after_results <;> rfl
theorem s1_keep_v3 (W : Valuation τ sig (Elt Ideal)) :
    StableHlo.after hostOps1 W (Proc.devRef .tc main_v3) = W (Proc.devRef .tc main_v3) := by
  after_results <;> rfl
theorem s1_keep_arg10 (W : Valuation τ sig (Elt Ideal)) :
    StableHlo.after hostOps1 W (Proc.devRef .tc main_arg10) = W (Proc.devRef .tc main_arg10) := by
  after_results <;> rfl
theorem s1_keep_arg11 (W : Valuation τ sig (Elt Ideal)) :
    StableHlo.after hostOps1 W (Proc.devRef .tc main_arg11) = W (Proc.devRef .tc main_arg11) := by
  after_results <;> rfl
theorem s1_keep_arg12 (W : Valuation τ sig (Elt Ideal)) :
    StableHlo.after hostOps1 W (Proc.devRef .tc main_arg12) = W (Proc.devRef .tc main_arg12) := by
  after_results <;> rfl
theorem s1_keep_arg13 (W : Valuation τ sig (Elt Ideal)) :
    StableHlo.after hostOps1 W (Proc.devRef .tc main_arg13) = W (Proc.devRef .tc main_arg13) := by
  after_results <;> rfl
theorem s1_keep_arg14 (W : Valuation τ sig (Elt Ideal)) :
    StableHlo.after hostOps1 W (Proc.devRef .tc main_arg14) = W (Proc.devRef .tc main_arg14) := by
  after_results <;> rfl
theorem s1_keep_arg15 (W : Valuation τ sig (Elt Ideal)) :
    StableHlo.after hostOps1 W (Proc.devRef .tc main_arg15) = W (Proc.devRef .tc main_arg15) := by
  after_results <;> rfl
theorem s2_v43 (W : Valuation τ sig (Elt Ideal)) :
    (StableHlo.after hostOps2 W (Proc.devRef .tc main_v43) : Net.Feat) = aggV (W (Proc.devRef .tc main_v1)) (W (Proc.devRef .tc main_v3)) (W (Proc.devRef .tc main_v33)) := by
  after_results <;> rfl
theorem s2_v44 (W : Valuation τ sig (Elt Ideal)) :
    (StableHlo.after hostOps2 W (Proc.devRef .tc main_v44) : FVec Ideal S128x128 .bf16) = truncf (F := Ideal) .bf16 ((W (Proc.devRef .tc main_arg10)) : FVec Ideal S128x128 .f32) bitsLt_bf16_f32 := by
  after_results <;> rfl
theorem s2_v46 (W : Valuation τ sig (Elt Ideal)) :
    (StableHlo.after hostOps2 W (Proc.devRef .tc main_v46) : FVec Ideal S1x128 .f32) = shapeCast S1x128 ((W (Proc.devRef .tc main_arg11)) : FVec Ideal S128 .f32) shapeCasts_S128_S1x128 := by
  after_results <;> rfl
theorem s2_v45 (W : Valuation τ sig (Elt Ideal)) :
    (StableHlo.after hostOps2 W (Proc.devRef .tc main_v45) : FVec Ideal S128x128 .bf16) = truncf (F := Ideal) .bf16 ((W (Proc.devRef .tc main_arg12)) : FVec Ideal S128x128 .f32) bitsLt_bf16_f32 := by
  after_results <;> rfl
theorem s2_v47 (W : Valuation τ sig (Elt Ideal)) :
    (StableHlo.after hostOps2 W (Proc.devRef .tc main_v47) : FVec Ideal S1x128 .f32) = shapeCast S1x128 ((W (Proc.devRef .tc main_arg13)) : FVec Ideal S128 .f32) shapeCasts_S128_S1x128 := by
  after_results <;> rfl
theorem s2_keep_v33 (W : Valuation τ sig (Elt Ideal)) :
    StableHlo.after hostOps2 W (Proc.devRef .tc main_v33) = W (Proc.devRef .tc main_v33) := by
  after_results <;> rfl
theorem s2_keep_arg14 (W : Valuation τ sig (Elt Ideal)) :
    StableHlo.after hostOps2 W (Proc.devRef .tc main_arg14) = W (Proc.devRef .tc main_arg14) := by
  after_results <;> rfl
theorem s2_keep_arg15 (W : Valuation τ sig (Elt Ideal)) :
    StableHlo.after hostOps2 W (Proc.devRef .tc main_arg15) = W (Proc.devRef .tc main_arg15) := by
  after_results <;> rfl
theorem s3_v49 (W : Valuation τ sig (Elt Ideal)) :
    (StableHlo.after hostOps3 W (Proc.devRef .tc main_v49) : FVec Ideal S128x1 .bf16) = truncf (F := Ideal) .bf16 ((W (Proc.devRef .tc main_arg14)) : FVec Ideal S128x1 .f32) bitsLt_bf16_f32 := by
  after_results <;> rfl
theorem s3_v50 (W : Valuation τ sig (Elt Ideal)) :
    (StableHlo.after hostOps3 W (Proc.devRef .tc main_v50) : FVec Ideal S1x1 .f32) = shapeCast S1x1 ((W (Proc.devRef .tc main_arg15)) : FVec Ideal S1 .f32) shapeCasts_S1_S1x1 := by
  after_results <;> rfl
theorem s3_keep_v48 (W : Valuation τ sig (Elt Ideal)) :
    StableHlo.after hostOps3 W (Proc.devRef .tc main_v48) = W (Proc.devRef .tc main_v48) := by
  after_results <;> rfl
theorem s4_v52 (W : Valuation τ sig (Elt Ideal)) :
    (StableHlo.after hostOps4 W (Proc.devRef .tc main_v52) : FVec Ideal S100000 .f32) = shapeCast S100000 ((W (Proc.devRef .tc main_v51)) : FVec Ideal S100000x1 .f32) shapeCasts_S100000x1_S100000 := by
  after_results <;> rfl

/-! ## The network's stages as functions of the launch memory -/

variable (m : (ℓ : Loc nD τ sig) → Buf (Elt Ideal) ℓ) (ρ : Dev nD → PrngReg) (c : Dev nD)

/-- The aggregation over the launched edge list. -/
def edgeAgg : Net.Feat → Net.Feat := aggV (src (m ((c : Thread nD τ).loc main_arg1))) (dst (m ((c : Thread nD τ).loc main_arg1)))
/-- The features after the first layer. -/
def feat0 : Net.Feat := Net.layer (edgeAgg m c) bitsLt_bf16_f32 shapeCasts_S128_S1x128 (m ((c : Thread nD τ).loc main_arg0)) (m ((c : Thread nD τ).loc main_arg2)) (m ((c : Thread nD τ).loc main_arg3)) (m ((c : Thread nD τ).loc main_arg4)) (m ((c : Thread nD τ).loc main_arg5))
/-- The features after the second layer. -/
def feat1 : Net.Feat := Net.layer (edgeAgg m c) bitsLt_bf16_f32 shapeCasts_S128_S1x128 (feat0 m c) (m ((c : Thread nD τ).loc main_arg6)) (m ((c : Thread nD τ).loc main_arg7)) (m ((c : Thread nD τ).loc main_arg8)) (m ((c : Thread nD τ).loc main_arg9))
/-- The features after the third layer. -/
def feat2 : Net.Feat := Net.layer (edgeAgg m c) bitsLt_bf16_f32 shapeCasts_S128_S1x128 (feat1 m c) (m ((c : Thread nD τ).loc main_arg10)) (m ((c : Thread nD τ).loc main_arg11)) (m ((c : Thread nD τ).loc main_arg12)) (m ((c : Thread nD τ).loc main_arg13))
/-- The program's result: the projection head of the third layer's features. -/
def netK : FVec Ideal S100000 .f32 :=
  Net.head bitsLt_bf16_f32 shapeCasts_S1_S1x1 shapeCasts_S100000x1_S100000 (feat2 m c) (m ((c : Thread nD τ).loc main_arg14)) (m ((c : Thread nD τ).loc main_arg15))

/-! ## Boundary 1: after the first host stretch -/

theorem B1_v13 : (V1 m ρ c main_v13 : Net.Feat) = edgeAgg m c (m ((c : Thread nD τ).loc main_arg0)) := s0_v13 (W0 m ρ c)
theorem B1_arg0 : (V1 m ρ c main_arg0 : Net.Feat) = (m ((c : Thread nD τ).loc main_arg0)) := s0_keep_arg0 (W0 m ρ c)
theorem B1_v14 : (V1 m ρ c main_v14 : FVec Ideal S128x128 .bf16) = truncf (F := Ideal) .bf16 ((m ((c : Thread nD τ).loc main_arg2)) : FVec Ideal S128x128 .f32) bitsLt_bf16_f32 := s0_v14 (W0 m ρ c)
theorem B1_v16 : (V1 m ρ c main_v16 : FVec Ideal S1x128 .f32) = shapeCast S1x128 ((m ((c : Thread nD τ).loc main_arg3)) : FVec Ideal S128 .f32) shapeCasts_S128_S1x128 := s0_v16 (W0 m ρ c)
theorem B1_v15 : (V1 m ρ c main_v15 : FVec Ideal S128x128 .bf16) = truncf (F := Ideal) .bf16 ((m ((c : Thread nD τ).loc main_arg4)) : FVec Ideal S128x128 .f32) bitsLt_bf16_f32 := s0_v15 (W0 m ρ c)
theorem B1_v17 : (V1 m ρ c main_v17 : FVec Ideal S1x128 .f32) = shapeCast S1x128 ((m ((c : Thread nD τ).loc main_arg5)) : FVec Ideal S128 .f32) shapeCasts_S128_S1x128 := s0_v17 (W0 m ρ c)
theorem B1_v1 : (W1 m ρ c (Proc.devRef .tc main_v1) : (⟨S1600000, .i32⟩ : BufTy).Contents (Elt Ideal)) = src (m ((c : Thread nD τ).loc main_arg1)) := s0_v1 (W0 m ρ c)
theorem B1_v3 : (W1 m ρ c (Proc.devRef .tc main_v3) : (⟨S1600000, .i32⟩ : BufTy).Contents (Elt Ideal)) = dst (m ((c : Thread nD τ).loc main_arg1)) := s0_v3 (W0 m ρ c)
theorem B1_arg6 : W1 m ρ c (Proc.devRef .tc main_arg6) = (m ((c : Thread nD τ).loc main_arg6)) := s0_keep_arg6 (W0 m ρ c)
theorem B1_arg7 : W1 m ρ c (Proc.devRef .tc main_arg7) = (m ((c : Thread nD τ).loc main_arg7)) := s0_keep_arg7 (W0 m ρ c)
theorem B1_arg8 : W1 m ρ c (Proc.devRef .tc main_arg8) = (m ((c : Thread nD τ).loc main_arg8)) := s0_keep_arg8 (W0 m ρ c)
theorem B1_arg9 : W1 m ρ c (Proc.devRef .tc main_arg9) = (m ((c : Thread nD τ).loc main_arg9)) := s0_keep_arg9 (W0 m ρ c)
theorem B1_arg10 : W1 m ρ c (Proc.devRef .tc main_arg10) = (m ((c : Thread nD τ).loc main_arg10)) := s0_keep_arg10 (W0 m ρ c)
theorem B1_arg11 : W1 m ρ c (Proc.devRef .tc main_arg11) = (m ((c : Thread nD τ).loc main_arg11)) := s0_keep_arg11 (W0 m ρ c)
theorem B1_arg12 : W1 m ρ c (Proc.devRef .tc main_arg12) = (m ((c : Thread nD τ).loc main_arg12)) := s0_keep_arg12 (W0 m ρ c)
theorem B1_arg13 : W1 m ρ c (Proc.devRef .tc main_arg13) = (m ((c : Thread nD τ).loc main_arg13)) := s0_keep_arg13 (W0 m ρ c)
theorem B1_arg14 : W1 m ρ c (Proc.devRef .tc main_arg14) = (m ((c : Thread nD τ).loc main_arg14)) := s0_keep_arg14 (W0 m ρ c)
theorem B1_arg15 : W1 m ρ c (Proc.devRef .tc main_arg15) = (m ((c : Thread nD τ).loc main_arg15)) := s0_keep_arg15 (W0 m ρ c)

/-! ## Boundary 2: after the first layer's kernel -/

theorem B2_v18 : (W2 m ρ c (Proc.devRef .tc main_v18) : Net.Feat) = feat0 m c := by
  refine (W2_arr m ρ c 6).trans ((final0 (V1 m ρ) c).trans ?_)
  show mlp (φ₁ := .bf16) (φ₂ := .bf16) (V1 m ρ c main_v13) (V1 m ρ c main_arg0) (V1 m ρ c main_v14) (V1 m ρ c main_v16) (V1 m ρ c main_v15) (V1 m ρ c main_v17) = _
  rw [B1_v13, B1_arg0, B1_v14, B1_v16, B1_v15, B1_v17]
  rfl
theorem B2_v1 : (W2 m ρ c (Proc.devRef .tc main_v1) : (⟨S1600000, .i32⟩ : BufTy).Contents (Elt Ideal)) = src (m ((c : Thread nD τ).loc main_arg1)) :=
  (W2_of_ne m ρ c main_v1 (by decide)).trans (B1_v1 m ρ c)
theorem B2_v3 : (W2 m ρ c (Proc.devRef .tc main_v3) : (⟨S1600000, .i32⟩ : BufTy).Contents (Elt Ideal)) = dst (m ((c : Thread nD τ).loc main_arg1)) :=
  (W2_of_ne m ρ c main_v3 (by decide)).trans (B1_v3 m ρ c)
theorem B2_arg6 : W2 m ρ c (Proc.devRef .tc main_arg6) = (m ((c : Thread nD τ).loc main_arg6)) :=
  (W2_of_ne m ρ c main_arg6 (by decide)).trans (B1_arg6 m ρ c)
theorem B2_arg7 : W2 m ρ c (Proc.devRef .tc main_arg7) = (m ((c : Thread nD τ).loc main_arg7)) :=
  (W2_of_ne m ρ c main_arg7 (by decide)).trans (B1_arg7 m ρ c)
theorem B2_arg8 : W2 m ρ c (Proc.devRef .tc main_arg8) = (m ((c : Thread nD τ).loc main_arg8)) :=
  (W2_of_ne m ρ c main_arg8 (by decide)).trans (B1_arg8 m ρ c)
theorem B2_arg9 : W2 m ρ c (Proc.devRef .tc main_arg9) = (m ((c : Thread nD τ).loc main_arg9)) :=
  (W2_of_ne m ρ c main_arg9 (by decide)).trans (B1_arg9 m ρ c)
theorem B2_arg10 : W2 m ρ c (Proc.devRef .tc main_arg10) = (m ((c : Thread nD τ).loc main_arg10)) :=
  (W2_of_ne m ρ c main_arg10 (by decide)).trans (B1_arg10 m ρ c)
theorem B2_arg11 : W2 m ρ c (Proc.devRef .tc main_arg11) = (m ((c : Thread nD τ).loc main_arg11)) :=
  (W2_of_ne m ρ c main_arg11 (by decide)).trans (B1_arg11 m ρ c)
theorem B2_arg12 : W2 m ρ c (Proc.devRef .tc main_arg12) = (m ((c : Thread nD τ).loc main_arg12)) :=
  (W2_of_ne m ρ c main_arg12 (by decide)).trans (B1_arg12 m ρ c)
theorem B2_arg13 : W2 m ρ c (Proc.devRef .tc main_arg13) = (m ((c : Thread nD τ).loc main_arg13)) :=
  (W2_of_ne m ρ c main_arg13 (by decide)).trans (B1_arg13 m ρ c)
theorem B2_arg14 : W2 m ρ c (Proc.devRef .tc main_arg14) = (m ((c : Thread nD τ).loc main_arg14)) :=
  (W2_of_ne m ρ c main_arg14 (by decide)).trans (B1_arg14 m ρ c)
theorem B2_arg15 : W2 m ρ c (Proc.devRef .tc main_arg15) = (m ((c : Thread nD τ).loc main_arg15)) :=
  (W2_of_ne m ρ c main_arg15 (by decide)).trans (B1_arg15 m ρ c)

/-! ## Boundary 3: after the second host stretch -/

theorem B3_v28 : (V3 m ρ c main_v28 : Net.Feat) = edgeAgg m c (feat0 m c) := by
  refine (s1_v28 (W2 m ρ c)).trans ?_
  rw [B2_v1, B2_v3, B2_v18]
  rfl
theorem B3_v18 : (V3 m ρ c main_v18 : Net.Feat) = feat0 m c :=
  (s1_keep_v18 (W2 m ρ c)).trans (B2_v18 m ρ c)
theorem B3_v29 : (V3 m ρ c main_v29 : FVec Ideal S128x128 .bf16) = truncf (F := Ideal) .bf16 ((m ((c : Thread nD τ).loc main_arg6)) : FVec Ideal S128x128 .f32) bitsLt_bf16_f32 := by
  refine (s1_v29 (W2 m ρ c)).trans ?_
  rw [B2_arg6]
theorem B3_v31 : (V3 m ρ c main_v31 : FVec Ideal S1x128 .f32) = shapeCast S1x128 ((m ((c : Thread nD τ).loc main_arg7)) : FVec Ideal S128 .f32) shapeCasts_S128_S1x128 := by
  refine (s1_v31 (W2 m ρ c)).trans ?_
  rw [B2_arg7]
theorem B3_v30 : (V3 m ρ c main_v30 : FVec Ideal S128x128 .bf16) = truncf (F := Ideal) .bf16 ((m ((c : Thread nD τ).loc main_arg8)) : FVec Ideal S128x128 .f32) bitsLt_bf16_f32 := by
  refine (s1_v30 (W2 m ρ c)).trans ?_
  rw [B2_arg8]
theorem B3_v32 : (V3 m ρ c main_v32 : FVec Ideal S1x128 .f32) = shapeCast S1x128 ((m ((c : Thread nD τ).loc main_arg9)) : FVec Ideal S128 .f32) shapeCasts_S128_S1x128 := by
  refine (s1_v32 (W2 m ρ c)).trans ?_
  rw [B2_arg9]
theorem B3_v1 : (W3 m ρ c (Proc.devRef .tc main_v1) : (⟨S1600000, .i32⟩ : BufTy).Contents (Elt Ideal)) = src (m ((c : Thread nD τ).loc main_arg1)) :=
  (s1_keep_v1 (W2 m ρ c)).trans (B2_v1 m ρ c)
theorem B3_v3 : (W3 m ρ c (Proc.devRef .tc main_v3) : (⟨S1600000, .i32⟩ : BufTy).Contents (Elt Ideal)) = dst (m ((c : Thread nD τ).loc main_arg1)) :=
  (s1_keep_v3 (W2 m ρ c)).trans (B2_v3 m ρ c)
theorem B3_arg10 : W3 m ρ c (Proc.devRef .tc main_arg10) = (m ((c : Thread nD τ).loc main_arg10)) :=
  (s1_keep_arg10 (W2 m ρ c)).trans (B2_arg10 m ρ c)
theorem B3_arg11 : W3 m ρ c (Proc.devRef .tc main_arg11) = (m ((c : Thread nD τ).loc main_arg11)) :=
  (s1_keep_arg11 (W2 m ρ c)).trans (B2_arg11 m ρ c)
theorem B3_arg12 : W3 m ρ c (Proc.devRef .tc main_arg12) = (m ((c : Thread nD τ).loc main_arg12)) :=
  (s1_keep_arg12 (W2 m ρ c)).trans (B2_arg12 m ρ c)
theorem B3_arg13 : W3 m ρ c (Proc.devRef .tc main_arg13) = (m ((c : Thread nD τ).loc main_arg13)) :=
  (s1_keep_arg13 (W2 m ρ c)).trans (B2_arg13 m ρ c)
theorem B3_arg14 : W3 m ρ c (Proc.devRef .tc main_arg14) = (m ((c : Thread nD τ).loc main_arg14)) :=
  (s1_keep_arg14 (W2 m ρ c)).trans (B2_arg14 m ρ c)
theorem B3_arg15 : W3 m ρ c (Proc.devRef .tc main_arg15) = (m ((c : Thread nD τ).loc main_arg15)) :=
  (s1_keep_arg15 (W2 m ρ c)).trans (B2_arg15 m ρ c)

/-! ## Boundary 4: after the second layer's kernel -/

theorem B4_v33 : (W4 m ρ c (Proc.devRef .tc main_v33) : Net.Feat) = feat1 m c := by
  refine (W4_arr m ρ c 6).trans ((final1 (V3 m ρ) c).trans ?_)
  show mlp (φ₁ := .bf16) (φ₂ := .bf16) (V3 m ρ c main_v28) (V3 m ρ c main_v18) (V3 m ρ c main_v29) (V3 m ρ c main_v31) (V3 m ρ c main_v30) (V3 m ρ c main_v32) = _
  rw [B3_v28, B3_v18, B3_v29, B3_v31, B3_v30, B3_v32]
  rfl
theorem B4_v1 : (W4 m ρ c (Proc.devRef .tc main_v1) : (⟨S1600000, .i32⟩ : BufTy).Contents (Elt Ideal)) = src (m ((c : Thread nD τ).loc main_arg1)) :=
  (W4_of_ne m ρ c main_v1 (by decide)).trans (B3_v1 m ρ c)
theorem B4_v3 : (W4 m ρ c (Proc.devRef .tc main_v3) : (⟨S1600000, .i32⟩ : BufTy).Contents (Elt Ideal)) = dst (m ((c : Thread nD τ).loc main_arg1)) :=
  (W4_of_ne m ρ c main_v3 (by decide)).trans (B3_v3 m ρ c)
theorem B4_arg10 : W4 m ρ c (Proc.devRef .tc main_arg10) = (m ((c : Thread nD τ).loc main_arg10)) :=
  (W4_of_ne m ρ c main_arg10 (by decide)).trans (B3_arg10 m ρ c)
theorem B4_arg11 : W4 m ρ c (Proc.devRef .tc main_arg11) = (m ((c : Thread nD τ).loc main_arg11)) :=
  (W4_of_ne m ρ c main_arg11 (by decide)).trans (B3_arg11 m ρ c)
theorem B4_arg12 : W4 m ρ c (Proc.devRef .tc main_arg12) = (m ((c : Thread nD τ).loc main_arg12)) :=
  (W4_of_ne m ρ c main_arg12 (by decide)).trans (B3_arg12 m ρ c)
theorem B4_arg13 : W4 m ρ c (Proc.devRef .tc main_arg13) = (m ((c : Thread nD τ).loc main_arg13)) :=
  (W4_of_ne m ρ c main_arg13 (by decide)).trans (B3_arg13 m ρ c)
theorem B4_arg14 : W4 m ρ c (Proc.devRef .tc main_arg14) = (m ((c : Thread nD τ).loc main_arg14)) :=
  (W4_of_ne m ρ c main_arg14 (by decide)).trans (B3_arg14 m ρ c)
theorem B4_arg15 : W4 m ρ c (Proc.devRef .tc main_arg15) = (m ((c : Thread nD τ).loc main_arg15)) :=
  (W4_of_ne m ρ c main_arg15 (by decide)).trans (B3_arg15 m ρ c)

/-! ## Boundary 5: after the third host stretch -/

theorem B5_v43 : (V5 m ρ c main_v43 : Net.Feat) = edgeAgg m c (feat1 m c) := by
  refine (s2_v43 (W4 m ρ c)).trans ?_
  rw [B4_v1, B4_v3, B4_v33]
  rfl
theorem B5_v33 : (V5 m ρ c main_v33 : Net.Feat) = feat1 m c :=
  (s2_keep_v33 (W4 m ρ c)).trans (B4_v33 m ρ c)
theorem B5_v44 : (V5 m ρ c main_v44 : FVec Ideal S128x128 .bf16) = truncf (F := Ideal) .bf16 ((m ((c : Thread nD τ).loc main_arg10)) : FVec Ideal S128x128 .f32) bitsLt_bf16_f32 := by
  refine (s2_v44 (W4 m ρ c)).trans ?_
  rw [B4_arg10]
theorem B5_v46 : (V5 m ρ c main_v46 : FVec Ideal S1x128 .f32) = shapeCast S1x128 ((m ((c : Thread nD τ).loc main_arg11)) : FVec Ideal S128 .f32) shapeCasts_S128_S1x128 := by
  refine (s2_v46 (W4 m ρ c)).trans ?_
  rw [B4_arg11]
theorem B5_v45 : (V5 m ρ c main_v45 : FVec Ideal S128x128 .bf16) = truncf (F := Ideal) .bf16 ((m ((c : Thread nD τ).loc main_arg12)) : FVec Ideal S128x128 .f32) bitsLt_bf16_f32 := by
  refine (s2_v45 (W4 m ρ c)).trans ?_
  rw [B4_arg12]
theorem B5_v47 : (V5 m ρ c main_v47 : FVec Ideal S1x128 .f32) = shapeCast S1x128 ((m ((c : Thread nD τ).loc main_arg13)) : FVec Ideal S128 .f32) shapeCasts_S128_S1x128 := by
  refine (s2_v47 (W4 m ρ c)).trans ?_
  rw [B4_arg13]
theorem B5_arg14 : W5 m ρ c (Proc.devRef .tc main_arg14) = (m ((c : Thread nD τ).loc main_arg14)) :=
  (s2_keep_arg14 (W4 m ρ c)).trans (B4_arg14 m ρ c)
theorem B5_arg15 : W5 m ρ c (Proc.devRef .tc main_arg15) = (m ((c : Thread nD τ).loc main_arg15)) :=
  (s2_keep_arg15 (W4 m ρ c)).trans (B4_arg15 m ρ c)

/-! ## Boundary 6: after the third layer's kernel -/

theorem B6_v48 : (W6 m ρ c (Proc.devRef .tc main_v48) : Net.Feat) = feat2 m c := by
  refine (W6_arr m ρ c 6).trans ((final2 (V5 m ρ) c).trans ?_)
  show mlp (φ₁ := .bf16) (φ₂ := .bf16) (V5 m ρ c main_v43) (V5 m ρ c main_v33) (V5 m ρ c main_v44) (V5 m ρ c main_v46) (V5 m ρ c main_v45) (V5 m ρ c main_v47) = _
  rw [B5_v43, B5_v33, B5_v44, B5_v46, B5_v45, B5_v47]
  rfl
theorem B6_arg14 : W6 m ρ c (Proc.devRef .tc main_arg14) = (m ((c : Thread nD τ).loc main_arg14)) :=
  (W6_of_ne m ρ c main_arg14 (by decide)).trans (B5_arg14 m ρ c)
theorem B6_arg15 : W6 m ρ c (Proc.devRef .tc main_arg15) = (m ((c : Thread nD τ).loc main_arg15)) :=
  (W6_of_ne m ρ c main_arg15 (by decide)).trans (B5_arg15 m ρ c)

/-! ## Boundary 7: after the fourth host stretch -/

theorem B7_v48 : (V7 m ρ c main_v48 : Net.Feat) = feat2 m c :=
  (s3_keep_v48 (W6 m ρ c)).trans (B6_v48 m ρ c)
theorem B7_v49 : (V7 m ρ c main_v49 : FVec Ideal S128x1 .bf16) = truncf (F := Ideal) .bf16 ((m ((c : Thread nD τ).loc main_arg14)) : FVec Ideal S128x1 .f32) bitsLt_bf16_f32 := by
  refine (s3_v49 (W6 m ρ c)).trans ?_
  rw [B6_arg14]
theorem B7_v50 : (V7 m ρ c main_v50 : FVec Ideal S1x1 .f32) = shapeCast S1x1 ((m ((c : Thread nD τ).loc main_arg15)) : FVec Ideal S1 .f32) shapeCasts_S1_S1x1 := by
  refine (s3_v50 (W6 m ρ c)).trans ?_
  rw [B6_arg15]

/-! ## Boundaries 8 and 9: the projection kernel and the final reshape -/

theorem B8_v51 : (W8 m ρ c (Proc.devRef .tc main_v51) : FVec Ideal S100000x1 .f32)
    = proj (φ₁ := .f32) (φ₂ := .bf16) (feat2 m c) (truncf .bf16 ((m ((c : Thread nD τ).loc main_arg14)) : FVec Ideal S128x1 .f32) bitsLt_bf16_f32)
        (shapeCast S1x1 ((m ((c : Thread nD τ).loc main_arg15)) : FVec Ideal S1 .f32) shapeCasts_S1_S1x1) := by
  refine (W8_arr m ρ c 3).trans ((final3 (V7 m ρ) c).trans ?_)
  show proj (φ₁ := .f32) (φ₂ := .bf16) (V7 m ρ c main_v48) (V7 m ρ c main_v49) (V7 m ρ c main_v50) = _
  rw [B7_v48, B7_v49, B7_v50]

/-- The returned array at the last boundary is the network of the launch memory's inputs. -/
theorem result_eq : (W9 m ρ c (Proc.devRef .tc main_v52) : FVec Ideal S100000 .f32) = netK m c := by
  refine (s4_v52 (W8 m ρ c)).trans ?_
  rw [B8_v51]
  rfl

end Cert.KernelIdeal.Whole

end
-- ==== Proof.RefValue.lean ====
/-
  The reference program as the same network.

  Its run ends with the result at the composed term of its 93 host operations. Read from the inside out that term
  is three times "aggregate, add the features, two dense stages with bias and rectifier" and then the projection:
  the network `Net.head` of three `Net.layer`s over this program's aggregation (the gather of every edge's source
  row and the scatter-add at its destination, spelt exactly as the program spells them).
-/
import proofs.«122766_j81552839016471_1_alg».proof.Proof.Gen.ReferenceIdeal.Run
import proofs.«122766_j81552839016471_1_alg».proof.Proof.NetSpec

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Net

/-- The aggregate of the features `h` over the edge list `ei`: every edge's source row (row 0 of the list; a
    negative index wrapped once), summed into the edge's destination row (row 1) of a zero array. -/
def aggR (ei : (⟨S2x1600000, .i32⟩ : BufTy).Contents (Elt Ideal)) (h : Net.Feat) : Net.Feat :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast _ (extractStridedSlice S1x1600000 ![1, 0] ei slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select
          (cmpi .slt (shapeCast _ (extractStridedSlice S1x1600000 ![0, 0] ei slices_S2x1600000_S1x1600000_0_0) shapeCasts_S1x1600000_S1600000)
            (broadcastInDim S1600000 ![] bcast_S_S1600000 (constantI S_ 32 0#32)))
          (addi (shapeCast _ (extractStridedSlice S1x1600000 ![0, 0] ei slices_S2x1600000_S1x1600000_0_0) shapeCasts_S1x1600000_S1600000)
            (broadcastInDim S1600000 ![] bcast_S_S1600000 (constantI S_ 32 100000#32)))
          (shapeCast _ (extractStridedSlice S1x1600000 ![0, 0] ei slices_S2x1600000_S1x1600000_0_0) shapeCasts_S1x1600000_S1600000))))

/-- One layer as the program spells it. -/
def refLayer (ei : (⟨S2x1600000, .i32⟩ : BufTy).Contents (Elt Ideal)) (h : Net.Feat) (w1 : Net.Wt) (b1 : Net.Bs)
    (w2 : Net.Wt) (b2 : Net.Bs) : Net.Feat :=
  maximumf (addf (Host.dotGeneral dot_S100000x128_S128x128_S100000x128_1_0_0_1_n_n none
        (maximumf (addf (Host.dotGeneral dot_S100000x128_S128x128_S100000x128_1_0_0_1_n_n none (addf (aggR ei h) h) w1)
            (broadcastInDim S100000x128 ![0, 1] bcast_S1x128_S100000x128_0_1 (broadcastInDim S1x128 ![1] bcast_S128_S1x128_1 b1)))
          (broadcastInDim S100000x128 ![] bcast_S_S100000x128 (constant S_ .f32 0x00000000#32))) w2)
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))

variable (m : (ℓ : Loc nD τ sig) → Buf (Elt Ideal) ℓ) (c : Dev nD)

/-- The run's result term, folded: the projection of the third layer's features. -/
theorem res_eq :
    res_main_v71 (F := Ideal) m c
      = shapeCast _ (addf (Host.dotGeneral (φ₂ := .f32) dot_S100000x128_S128x1_S100000x1_1_0_0_1_n_n none
          (refLayer (m ((c.tc : Thread nD τ).loc main_arg1)) (refLayer (m ((c.tc : Thread nD τ).loc main_arg1)) (refLayer (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)))
        (broadcastInDim S100000x1 ![0, 1] bcast_S1x1_S100000x1_0_1 (broadcastInDim S1x1 ![1] bcast_S1_S1x1_1 (m ((c.tc : Thread nD τ).loc main_arg15)))))
        shapeCasts_S100000x1_S100000 := by
  unfold res_main_v71 refLayer aggR
  rfl

/-- The printed record of the layers' products is the plain one. -/
theorem dotR_eq : dot_S100000x128_S128x128_S100000x128_1_0_0_1_n_n = DotDims.plain 100000 128 128 := rfl
/-- The printed record of the head's product is the plain one. -/
theorem dotR'_eq : dot_S100000x128_S128x1_S100000x1_1_0_0_1_n_n = DotDims.plain 100000 128 1 := rfl

/-- The program's layer is the network's layer over the program's aggregation. -/
theorem refLayer_eq (hlt : FTy.bf16.bits < FTy.f32.bits) (hc : (⟨1, ![128]⟩ : Shape).ShapeCasts ⟨2, ![1, 128]⟩)
    (ei : (⟨S2x1600000, .i32⟩ : BufTy).Contents (Elt Ideal)) (h : Net.Feat) (w1 : Net.Wt) (b1 : Net.Bs) (w2 : Net.Wt) (b2 : Net.Bs) :
    refLayer ei h w1 b1 w2 b2 = Net.layer (aggR ei) hlt hc h w1 b1 w2 b2 := by
  unfold refLayer
  rw [dotR_eq]
  exact hostLayer_eq (aggR ei) hlt hc h w1 b1 w2 b2 bcast_S128_S1x128_1 bcast_S1x128_S100000x128_0_1 bcast_S_S100000x128

/-- The reference's result is the network of its inputs. -/
theorem result_eq (hlt : FTy.bf16.bits < FTy.f32.bits) (hc : (⟨1, ![128]⟩ : Shape).ShapeCasts ⟨2, ![1, 128]⟩)
    (hc1 : (⟨1, ![1]⟩ : Shape).ShapeCasts ⟨2, ![1, 1]⟩) (ho : (⟨2, ![100000, 1]⟩ : Shape).ShapeCasts ⟨1, ![100000]⟩) :
    res_main_v71 (F := Ideal) m c
      = Net.head hlt hc1 ho
          (Net.layer (aggR (m ((c.tc : Thread nD τ).loc main_arg1))) hlt hc (Net.layer (aggR (m ((c.tc : Thread nD τ).loc main_arg1))) hlt hc (Net.layer (aggR (m ((c.tc : Thread nD τ).loc main_arg1))) hlt hc (m ((c.tc : Thread nD τ).loc main_arg0))
              (m ((c.tc : Thread nD τ).loc main_arg2)) (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg10)) (m ((c.tc : Thread nD τ).loc main_arg11)) (m ((c.tc : Thread nD τ).loc main_arg12)) (m ((c.tc : Thread nD τ).loc main_arg13)))
          (m ((c.tc : Thread nD τ).loc main_arg14)) (m ((c.tc : Thread nD τ).loc main_arg15)) := by
  rw [res_eq, refLayer_eq hlt hc, refLayer_eq hlt hc, refLayer_eq hlt hc, dotR'_eq]
  exact hostHead_eq hlt hc1 ho _ _ _ bcast_S1_S1x1_1 bcast_S1x1_S100000x1_0_1

end Cert.ReferenceIdeal.RefValue

end
-- ==== Proof.lean ====
/-
  The kernel and the reference are one network at the extended reals.

  Both programs compute three graph-isomorphism layers and a projection head over 100000 nodes with 128 features
  and 1600000 edges. A layer aggregates the features of every edge's source node at the edge's destination (a gather
  and a scatter-add, the same host operations in both programs), adds the node's own features, and applies two dense
  stages with bias and rectifier: max ((max ((agg h + h)·W₁ + b₁) 0)·W₂ + b₂) 0. The kernel runs the dense part on
  blocks of 5000 nodes with the weights and the activations narrowed to bf16, which is the identity on the extended
  reals, and a row of a matrix product depends on that row of the left factor alone; so each tiled call returns the
  whole-array layer of the arrays it was entered with, and walking the program's segments its result is the network
  `Net.head` ∘ three `Net.layer`s of its inputs. The reference's composed result term is the same network spelt with
  `dot_general` and broadcasts. No law of real arithmetic beyond 0 + x = x is used, so the finiteness of the inputs
  is not needed for the values.
-/
import proofs.«122766_j81552839016471_1_alg».proof.Defs
import proofs.«122766_j81552839016471_1_alg».proof.Proof.Gen.Kernel
import proofs.«122766_j81552839016471_1_alg».proof.Proof.FrameKernel
import proofs.«122766_j81552839016471_1_alg».proof.Proof.Gen.KernelIdeal
import proofs.«122766_j81552839016471_1_alg».proof.Proof.KernelValue
import proofs.«122766_j81552839016471_1_alg».proof.Proof.Gen.ReferenceIdeal
import proofs.«122766_j81552839016471_1_alg».proof.Proof.RefValue
import proofs.«122766_j81552839016471_1_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two programs' aggregations are one function: the same slices of the edge list, the same gather and the
    same scatter-add. -/
theorem agg_eq (ei : (⟨Cert.KernelIdeal.S2x1600000, .i32⟩ : BufTy).Contents (Elt Ideal)) :
    Cert.KernelIdeal.Whole.aggV (Cert.KernelIdeal.Whole.src ei) (Cert.KernelIdeal.Whole.dst ei) = Cert.ReferenceIdeal.RefValue.aggR ei :=
  funext fun _ => rfl

/-- Run from memories that agree on the arguments, both programs end with the network of those arguments. -/
theorem algebraic : Cert.algebraic_KernelIdeal_ReferenceIdeal := by
  intro m ρ m' ρ' _ hagree
  refine ⟨fun c => Cert.KernelIdeal.Whole.netK m c, ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    refine (Cert.ReferenceIdeal.RefValue.result_eq m' c Cert.KernelIdeal.Facts₀.bitsLt_bf16_f32 Cert.KernelIdeal.Facts₀.shapeCasts_S128_S1x128
      Cert.KernelIdeal.Facts₀.shapeCasts_S1_S1x1 Cert.KernelIdeal.Facts₀.shapeCasts_S100000x1_S100000).trans ?_
    rw [h0, h1, h2, h3, h4, h5, h6, h7, h8, h9, h10, h11, h12, h13, h14, h15]
    show _ = Cert.KernelIdeal.Whole.netK m c
    unfold Cert.KernelIdeal.Whole.netK Cert.KernelIdeal.Whole.feat2 Cert.KernelIdeal.Whole.feat1 Cert.KernelIdeal.Whole.feat0 Cert.KernelIdeal.Whole.edgeAgg
    rw [agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
